-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S4x768 : Shape := ⟨2, ![4, 768]⟩
abbrev S4 : Shape := ⟨1, ![4]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel
  bcast_S_S4x768 : S_.BroadcastsInDim S4x768 (![] : Fin 0 → Fin S4x768.rank)
  reducesTo_S4x768_S_d0_1 : S4x768.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S32x1024x768 .f32) (main_arg1 : FVec F S4x768 .f32) (main_arg2 : FVec F S4 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  let main_v4 : FVec F S4x768 .f32 := Host.absf main_arg1
  let main_cst_0 : FVec F S_ .f32 := constant S_ .f32 0x7F800000#32
  let main_v5 : FVec F S4x768 .f32 := broadcastInDim S4x768 ![] bcast_S_S4x768 main_cst_0
  let main_v6 : IVec S4x768 1 := cmpf .olt main_v4 main_v5
  let main_c_1 : IVec S_ 1 := constantI S_ 1 1#1
  let main_v7 : IVec S_ 1 := (fun x v => Host.reduce IntOp.andi x v reducesTo_S4x768_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S32x1024x768 : Shape := ⟨3, ![32, 1024, 768]⟩
abbrev S4x768 : Shape := ⟨2, ![4, 768]⟩
abbrev S4 : Shape := ⟨1, ![4]⟩
abbrev S32x32 : Shape := ⟨2, ![32, 32]⟩
abbrev S1x1024x768 : Shape := ⟨3, ![1, 1024, 768]⟩
abbrev S1024x768 : Shape := ⟨2, ![1024, 768]⟩
abbrev S32x32x768 : Shape := ⟨3, ![32, 32, 768]⟩
abbrev S768 : Shape := ⟨1, ![768]⟩
abbrev S1x768 : Shape := ⟨2, ![1, 768]⟩
abbrev S1 : Shape := ⟨1, ![1]⟩
abbrev S1x1 : Shape := ⟨2, ![1, 1]⟩
abbrev S32x24576 : Shape := ⟨2, ![32, 24576]⟩
abbrev S1x1x1 : Shape := ⟨3, ![1, 1, 1]⟩

abbrev nBuf : Space → Nat
  | .hbm => 5
  | .vmem => 7
  | .smem => 0
  | _ => 0

abbrev bufTy : (tb : Table) → Fin (tcTables nBuf tb) → BufTy
  | .hbm, ⟨0, _⟩ => ⟨S32x1024x768, .f32⟩
  | .hbm, ⟨1, _⟩ => ⟨S4x768, .f32⟩
  | .hbm, ⟨2, _⟩ => ⟨S4, .f32⟩
  | .hbm, ⟨3, _⟩ => ⟨S32x32, .f32⟩
  | .hbm, ⟨4, _⟩ => ⟨S32x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S4x768, .f32⟩
  | .local _ .vmem, ⟨3, _⟩ => ⟨S4, .f32⟩
  | .local _ .vmem, ⟨4, _⟩ => ⟨S32x32, .f32⟩
  | .local _ .vmem, ⟨5, _⟩ => ⟨S1x1024x768, .f32⟩
  | .local _ .vmem, ⟨6, _⟩ => ⟨S1x1024x768, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S1024x768_S32x32x768 : S1024x768.ShapeCasts S32x32x768
  reduces_S1024x768_S768 : S1024x768.Reduces [0] S768
  shapeCasts_S768_S1x768 : S768.ShapeCasts S1x768
  inb_S4x768_S4x768_0_0 : ∀ a, (![0, 0] : Fin 2 → Nat) a + S4x768.size a ≤ S4x768.size a
  h_S4x768 : 0 < S4x768.numel
  inb_S4_S4_0 : ∀ a, (![0] : Fin 1 → Nat) a + S4.size a ≤ S4.size a
  h_S4 : 0 < S4.numel
  slices_S4x768_o0_0_S1x768 : S4x768.Slices ![0, 0] S1x768
  reduces_S1x768_S1 : S1x768.Reduces [1] S1
  shapeCasts_S1_S1x1 : S1.ShapeCasts S1x1
  slices_S4_o0_S1 : S4.Slices ![0] S1
  inpos_S1_p0 : ∀ a, (![0] : Fin 1 → Nat) a < S1.size a
  slices_S4x768_o1_0_S1x768 : S4x768.Slices ![1, 0] S1x768
  slices_S4_o1_S1 : S4.Slices ![1] S1
  slices_S4x768_o2_0_S1x768 : S4x768.Slices ![2, 0] S1x768
  slices_S4_o2_S1 : S4.Slices ![2] S1
  slices_S4x768_o3_0_S1x768 : S4x768.Slices ![3, 0] S1x768
  slices_S4_o3_S1 : S4.Slices ![3] S1
  inb_S32x32_S32x32_0_0 : ∀ a, (![0, 0] : Fin 2 → Nat) a + S32x32.size a ≤ S32x32.size a
  h_S32x32 : 0 < S32x32.numel
  transposes_S32x32x768_p1_0_2_S32x32x768 : S32x32x768.Transposes [1, 0, 2] S32x32x768
  shapeCasts_S32x32x768_S32x24576 : S32x32x768.ShapeCasts S32x24576
  shapeCasts_S32x24576_S32x32x768 : S32x24576.ShapeCasts S32x32x768
  shapeCasts_S1x1_S1x1x1 : S1x1.ShapeCasts S1x1x1
  broadcasts_S1x1x1_S32x32x768 : S1x1x1.Broadcasts S32x32x768
  shapeCasts_S32x32x768_S1024x768 : S32x32x768.ShapeCasts S1024x768
  shapeCasts_S1024x768_S1x1024x768 : S1024x768.ShapeCasts S1x1024x768
  dot_S32x32_S32x24576_S32x24576_1_0_0_1_n_n_wf : DotDims.WF S32x32 S32x24576 S32x24576 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S32x1024x768.size a
  hwx0_0 : ∀ i : grid0.Coords, EltTy.bits .f32 = 32 ∨ (Rect.block (s := S32x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x768.size a ≤ S4x768.size a
  hwx0_1 : ∀ i : grid0.Coords, EltTy.bits .f32 = 32 ∨ (Rect.block (s := S4x768) S4x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x768.size a ≤ S32x1024x768.size a
  hwx0_4 : ∀ i : grid0.Coords, EltTy.bits .f32 = 32 ∨ (Rect.block (s := S32x1024x768) S1x1024x768.size (cc0_transform_4 i) (hinb0_4 i)).WholeWords (EltTy.packing .f32)

variable [Facts₀]

def dot_S32x32_S32x24576_S32x24576_1_0_0_1_n_n : DotDims S32x32 S32x24576 S32x24576 where
  lhsContracting := [1]
  rhsContracting := [0]
  lhsNonContracting := [0]
  rhsNonContracting := [1]
  lhsBatch := []
  rhsBatch := []
  wf := dot_S32x32_S32x24576_S32x24576_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_cst) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x768 : Shape := ⟨3, ![32, 1024, 768]⟩
abbrev S4x768 : Shape := ⟨2, ![4, 768]⟩
abbrev S4 : Shape := ⟨1, ![4]⟩
abbrev S32x768x1024 : Shape := ⟨3, ![32, 768, 1024]⟩
abbrev S32x768x32x32 : Shape := ⟨4, ![32, 768, 32, 32]⟩
abbrev S_ : Shape := ⟨0, ![]⟩
abbrev S32x768 : Shape := ⟨2, ![32, 768]⟩
abbrev S768x4 : Shape := ⟨2, ![768, 4]⟩
abbrev S32x4 : Shape := ⟨2, ![32, 4]⟩
abbrev S1x4 : Shape := ⟨2, ![1, 4]⟩
abbrev S32x4x1x1 : Shape := ⟨4, ![32, 4, 1, 1]⟩
abbrev S32x1x1x1 : Shape := ⟨4, ![32, 1, 1, 1]⟩
abbrev S32x1x1 : Shape := ⟨3, ![32, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S4x768, .f32⟩
  | .hbm, ⟨2, _⟩ => ⟨S4, .f32⟩
  | .hbm, ⟨3, _⟩ => ⟨S32x768x1024, .f32⟩
  | .hbm, ⟨4, _⟩ => ⟨S32x768x32x32, .f32⟩
  | .hbm, ⟨5, _⟩ => ⟨S_, .f32⟩
  | .hbm, ⟨6, _⟩ => ⟨S32x768, .f32⟩
  | .hbm, ⟨7, _⟩ => ⟨S_, .f32⟩
  | .hbm, ⟨8, _⟩ => ⟨S32x768, .f32⟩
  | .hbm, ⟨9, _⟩ => ⟨S32x768, .f32⟩
  | .hbm, ⟨10, _⟩ => ⟨S768x4, .f32⟩
  | .hbm, ⟨11, _⟩ => ⟨S32x4, .f32⟩
  | .hbm, ⟨12, _⟩ => ⟨S1x4, .f32⟩
  | .hbm, ⟨13, _⟩ => ⟨S32x4, .f32⟩
  | .hbm, ⟨14, _⟩ => ⟨S32x4, .f32⟩
  | .hbm, ⟨15, _⟩ => ⟨S32x4x1x1, .f32⟩
  | .hbm, ⟨16, _⟩ => ⟨S32x768x1024, .f32⟩
  | .hbm, ⟨17, _⟩ => ⟨S32x768x32x32, .f32⟩
  | .hbm, ⟨18, _⟩ => ⟨S32x768x1024, .f32⟩
  | .hbm, ⟨19, _⟩ => ⟨S32x768x1024, .f32⟩
  | .hbm, ⟨20, _⟩ => ⟨S32x768x1024, .f32⟩
  | .hbm, ⟨21, _⟩ => ⟨S32x1x1x1, .f32⟩
  | .hbm, ⟨22, _⟩ => ⟨S32x1x1, .f32⟩
  | .hbm, ⟨23, _⟩ => ⟨S32x768x1024, .f32⟩
  | .hbm, ⟨24, _⟩ => ⟨S32x768x1024, .f32⟩
  | .hbm, ⟨25, _⟩ => ⟨S32x1x1x1, .f32⟩
  | .hbm, ⟨26, _⟩ => ⟨S32x1x1, .f32⟩
  | .hbm, ⟨27, _⟩ => ⟨S32x768x1024, .f32⟩
  | .hbm, ⟨28, _⟩ => ⟨S32x768x1024, .f32⟩
  | .hbm, ⟨29, _⟩ => ⟨S32x768x1024, .f32⟩
  | .hbm, ⟨30, _⟩ => ⟨S32x1x1x1, .f32⟩
  | .hbm, ⟨31, _⟩ => ⟨S32x1x1, .f32⟩
  | .hbm, ⟨32, _⟩ => ⟨S32x768x1024, .f32⟩
  | .hbm, ⟨33, _⟩ => ⟨S32x768x1024, .f32⟩
  | .hbm, ⟨34, _⟩ => ⟨S32x768x1024, .f32⟩
  | .hbm, ⟨35, _⟩ => ⟨S32x1x1x1, .f32⟩
  | .hbm, ⟨36, _⟩ => ⟨S32x1x1, .f32⟩
  | .hbm, ⟨37, _⟩ => ⟨S32x768x1024, .f32⟩
  | .hbm, ⟨38, _⟩ => ⟨S32x768x1024, .f32⟩
  | .hbm, ⟨39, _⟩ => ⟨S32x768x1024, .f32⟩
  | .hbm, ⟨40, _⟩ => ⟨S32x1024x768, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]

class Facts₀ : Prop where
  transposes_S32x1024x768_S32x768x1024_0_2_1 : S32x1024x768.Transposes [0, 2, 1] S32x768x1024
  shapeCasts_S32x768x1024_S32x768x32x32 : S32x768x1024.ShapeCasts S32x768x32x32
  reducesTo_S32x768x32x32_S32x768_d2_3 : S32x768x32x32.ReducesTo [2, 3] S32x768
  h_S_ : 0 < S_.numel
  bcast_S_S32x768 : S_.BroadcastsInDim S32x768 (![] : Fin 0 → Fin S32x768.rank)
  transposes_S4x768_S768x4_1_0 : S4x768.Transposes [1, 0] S768x4
  bcast_S4_S1x4_1 : S4.BroadcastsInDim S1x4 (![1] : Fin 1 → Fin S1x4.rank)
  bcast_S1x4_S32x4_0_1 : S1x4.BroadcastsInDim S32x4 (![0, 1] : Fin 2 → Fin S32x4.rank)
  bcast_S32x4_S32x4x1x1_0_1 : S32x4.BroadcastsInDim S32x4x1x1 (![0, 1] : Fin 2 → Fin S32x4x1x1.rank)
  shapeCasts_S32x768x32x32_S32x768x1024 : S32x768x32x32.ShapeCasts S32x768x1024
  transposes_S32x768x32x32_S32x768x32x32_0_1_3_2 : S32x768x32x32.Transposes [0, 1, 3, 2] S32x768x32x32
  slices_S32x4x1x1_S32x1x1x1_0_0_0_0 : S32x4x1x1.Slices ![0, 0, 0, 0] S32x1x1x1
  shapeCasts_S32x1x1x1_S32x1x1 : S32x1x1x1.ShapeCasts S32x1x1
  bcast_S32x1x1_S32x768x1024_0_1_2 : S32x1x1.BroadcastsInDim S32x768x1024 (![0, 1, 2] : Fin 3 → Fin S32x768x1024.rank)
  slices_S32x4x1x1_S32x1x1x1_0_1_0_0 : S32x4x1x1.Slices ![0, 1, 0, 0] S32x1x1x1
  slices_S32x4x1x1_S32x1x1x1_0_2_0_0 : S32x4x1x1.Slices ![0, 2, 0, 0] S32x1x1x1
  slices_S32x4x1x1_S32x1x1x1_0_3_0_0 : S32x4x1x1.Slices ![0, 3, 0, 0] S32x1x1x1
  transposes_S32x768x1024_S32x1024x768_0_2_1 : S32x768x1024.Transposes [0, 2, 1] S32x1024x768
  dot_S32x768_S768x4_S32x4_1_0_0_1_n_n_wf : DotDims.WF S32x768 S768x4 S32x4 [1] [0] [0] [1] [] []

variable [Facts₀]

def dot_S32x768_S768x4_S32x4_1_0_0_1_n_n : DotDims S32x768 S768x4 S32x4 where
  lhsContracting := [1]
  rhsContracting := [0]
  lhsNonContracting := [0]
  rhsNonContracting := [1]
  lhsBatch := []
  rhsBatch := []
  wf := dot_S32x768_S768x4_S32x4_1_0_0_1_n_n_wf

class Facts : Prop extends Facts₀ where

variable [Facts]
-- ==== Proof.Spec.lean ====
/-
  The four-direction scan merge as ONE function of the argument arrays, at the ideal values.

  Per batch element the input is a slab xs(n, c), n < 1024 = 32·32 positions, c < 768 channels. The positions are read as
  a 32×32 square, n = 32·s + t. Four readings of the square are merged: the square itself, its transpose
  (32·s + t ↦ 32·t + s), the square read backwards (n ↦ 1023 − n, that is (s, t) ↦ (31 − s, 31 − t)), and the transpose
  read backwards. Each reading is weighted by a gate, one scalar per batch element and direction:
      mean(c)  = (∑ n, xs(n, c)) / 1024                     the mean over the positions,
      gate(i)  = (∑ c, mean(c) · W(i, c)) + b(i)            a 1×1 convolution of the pooled slab,
      merge(n, c) = ((g0·xs(n, c) + g1·xs(tr n, c)) + g2·xs(rv n, c)) + g3·xs(rv (tr n), c).
  The divisor is kept as the bit pattern of 1024.0 that both programs write: the same word on both sides is never
  evaluated.

  Two small laws are all the algebra the comparison needs, and both hold on every extended real, the infinities
  included (addition of extended reals is commutative and associative; 0·z = 0 and 1·z = z for every z):
  regrouping four summands, and the sum of a row of the reversal matrix against a vector, which picks one entry.
-/
import Idealize.ShloMosaic.PureOps.Ideal
import Idealize.ShloMosaic.PureOps.Ideal.Laws
import Idealize.ShloMosaic.Lib.ValueIdx

noncomputable section

open scoped BigOperators

namespace Cert.ScanMerge

open Idealize.ShloMosaic Idealize.ShloMosaic.ValueIdx

/-- The transposed position: 32·s + t ↦ 32·t + s. -/
def tr (n : Fin 1024) : Fin 1024 := ⟨32 * (n.val % 32) + n.val / 32, by have := n.isLt; omega⟩

/-- The position read backwards: n ↦ 1023 − n. -/
def rv (n : Fin 1024) : Fin 1024 := ⟨1023 - n.val, by have := n.isLt; omega⟩

/-- A row or column of the 32×32 square read backwards: p ↦ 31 − p. -/
def rv32 (p : Fin 32) : Fin 32 := ⟨31 - p.val, by have := p.isLt; omega⟩

/-- The position of row s, column t of the square. -/
def pos (s t : Fin 32) : Fin 1024 := ⟨32 * s.val + t.val, by have := s.isLt; have := t.isLt; omega⟩

/-- The number of positions, 1024.0, as the bit pattern both programs divide by. -/
abbrev count : EReal := Ideal.ofBits .f32 0x44800000#32

/-- The mean of a slab over its positions, per channel. -/
def slabMean (xs : Fin 1024 → Fin 768 → EReal) (c : Fin 768) : EReal :=
  Ideal.div (∑ n : Fin 1024, xs n c) count

/-- The gate of direction i: the pooled slab against row i of the weights, plus the bias. -/
def gate (xs : Fin 1024 → Fin 768 → EReal) (W : (⟨2, ![4, 768]⟩ : Shape).Idx → EReal)
    (b : (⟨1, ![4]⟩ : Shape).Idx → EReal) (i : Fin 4) : EReal :=
  (∑ c : Fin 768, slabMean xs c * W (ix2 i c)) + b (ix1 i)

/-- The merge of the four readings of one slab, at position n and channel c. -/
def mergeSlab (xs : Fin 1024 → Fin 768 → EReal) (W : (⟨2, ![4, 768]⟩ : Shape).Idx → EReal)
    (b : (⟨1, ![4]⟩ : Shape).Idx → EReal) (n : Fin 1024) (c : Fin 768) : EReal :=
  ((gate xs W b 0 * xs n c + gate xs W b 1 * xs (tr n) c) + gate xs W b 2 * xs (rv n) c)
    + gate xs W b 3 * xs (rv (tr n)) c

/-- The whole result: batch element by batch element, the merge of that element's slab. -/
def merged (x : (⟨3, ![32, 1024, 768]⟩ : Shape).Idx → EReal) (W : (⟨2, ![4, 768]⟩ : Shape).Idx → EReal)
    (b : (⟨1, ![4]⟩ : Shape).Idx → EReal) : (⟨3, ![32, 1024, 768]⟩ : Shape).Idx → EReal :=
  fun j => mergeSlab (fun n c => x (ix3 (j 0) n c)) W b (j 1) (j 2)

/-- Four summands grouped as (A + C) + (B + D) or one after the other: addition of extended reals is commutative and
    associative, at the infinities too. -/
theorem regroup (A B C D : EReal) : (A + C) + (B + D) = ((A + B) + C) + D := by
  rw [add_add_add_comm, ← add_assoc]

/-- A row of the reversal matrix (ones on the anti-diagonal, zeros elsewhere) against a vector picks the entry at the
    mirrored place: every other term is 0·z = 0, on every extended real. -/
theorem sum_reversal (R : Fin 32 → Fin 32 → EReal) (hR : ∀ p k : Fin 32, R p k = if p.val + k.val = 31 then 1 else 0)
    (z : Fin 32 → EReal) (p : Fin 32) : ∑ k : Fin 32, R p k * z k = z (rv32 p) := by
  rw [Finset.sum_eq_single (rv32 p)]
  · rw [hR, if_pos (by show p.val + (31 - p.val) = 31; have := p.isLt; omega), one_mul]
  · intro k _ hk
    rw [hR, if_neg (fun h => hk (Fin.ext (by show k.val = 31 - p.val; omega))), zero_mul]
  · intro h; exact absurd (Finset.mem_univ _) h

/-- Positions and the square: every position is row n / 32, column n % 32. -/
theorem pos_div_mod (n : Fin 1024) :
    pos ⟨n.val / 32, by have := n.isLt; omega⟩ ⟨n.val % 32, Nat.mod_lt _ (by decide)⟩ = n :=
  Fin.ext (by show 32 * (n.val / 32) + n.val % 32 = n.val; omega)

theorem tr_pos (s t : Fin 32) : tr (pos s t) = pos t s :=
  Fin.ext (by show 32 * ((32 * s.val + t.val) % 32) + (32 * s.val + t.val) / 32 = 32 * t.val + s.val
              have := s.isLt; have := t.isLt; omega)

theorem rv_pos (s t : Fin 32) : rv (pos s t) = pos (rv32 s) (rv32 t) :=
  Fin.ext (by show 1023 - (32 * s.val + t.val) = 32 * (31 - s.val) + (31 - t.val)
              have := s.isLt; have := t.isLt; omega)

end Cert.ScanMerge

end
-- ==== Proof.KernelBlock.lean ====
/-
  The kernel's pooled mean and gates, read at an index at the ideal values.

  The body loads one batch element as a [1, 1024, 768] block, drops the unit axis, and sums over the 1024 positions with
  a reduction over axis 0; divided by 1024 this is the mean per channel. Each gate multiplies the mean by one row of the
  weights, sums over the 768 channels with a reduction over the last axis, and adds one entry of the bias. A reduction
  over one axis is the sum over that axis's coordinate, so the four gates are the specification's gates of the loaded
  slab.
-/
import proofs.«130712_j36206574305366_2_alg».proof.Proof.Gen.KernelIdeal.Skeleton
import proofs.«130712_j36206574305366_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Block

open Idealize.ShloMosaic Idealize.ShloMosaic.ValueIdx Cert.KernelIdeal Cert.KernelIdeal.Gen Cert.ScanMerge

/-- The slab a loaded [1, 1024, 768] block holds. -/
abbrev slab (v0 : FVec Ideal S1x1024x768 .f32) : Fin 1024 → Fin 768 → EReal := fun n c => v0 (ix3 0 n c)

theorem pay2_apply (v0 : FVec Ideal S1x1024x768 .f32) (n : Fin 1024) (c : Fin 768) :
    k0_pay2 (F := Ideal) v0 (ix2 n c) = v0 (ix3 0 n c) := by
  unfold k0_pay2
  refine shapeCast_apply v0 _ (ix2 n c) (ix3 0 n c) ?_
  rw [Shape.rowMajor_val_three, Shape.rowMajor_val_two]
  show (0 * 1024 + n.val) * 768 + c.val = n.val * 768 + c.val
  omega

theorem pay4_apply (v0 : FVec Ideal S1x1024x768 .f32) (c : Fin 768) :
    k0_pay4 (F := Ideal) v0 (ix2 0 c) = slabMean (slab v0) c := by
  unfold k0_pay4 slabMean
  show Ideal.div (shapeCast S1x768 (multiReduction (F := Ideal) .add [0] S768 (k0_pay2 v0) 0x00000000#32 reduces_S1024x768_S768 (.inl rfl) rfl) shapeCasts_S768_S1x768 (ix2 0 c)) count = _
  refine congrArg (fun z => Ideal.div z count) ?_
  refine (shapeCast_apply _ shapeCasts_S768_S1x768 (ix2 0 c) (ix1 c) ?_).trans ?_
  · rw [Shape.rowMajor_val_one, Shape.rowMajor_val_two]
    show c.val = 0 * 768 + c.val
    omega
  refine (Ideal.multiReduction_add_single (φ := .f32) _ _ reduces_S1024x768_S768 _ _ (ix1 c)).trans ?_
  refine Finset.sum_congr rfl fun k _ => ?_
  exact pay2_apply v0 k c

/-- A row against a row, summed over the channels, plus a scalar: the shape of every gate's arithmetic. -/
theorem rowdot_apply (p w : FVec Ideal S1x768 .f32) (β : EReal) :
    addf (shapeCast S1x1 (multiReduction (F := Ideal) .add [1] S1 (mulf p w) 0x00000000#32 reduces_S1x768_S1 (.inl rfl) rfl) shapeCasts_S1_S1x1)
        (broadcast S1x1 β) (ix2 0 0)
      = (∑ c : Fin 768, p (ix2 0 c) * w (ix2 0 c)) + β := by
  show (shapeCast S1x1 (multiReduction (F := Ideal) .add [1] S1 (mulf p w) 0x00000000#32 reduces_S1x768_S1 (.inl rfl) rfl) shapeCasts_S1_S1x1 (ix2 0 0)) + β = _
  refine congrArg (· + β) ?_
  refine (shapeCast_apply _ shapeCasts_S1_S1x1 (ix2 0 0) (ix1 0) ?_).trans ?_
  · rw [Shape.rowMajor_val_one, Shape.rowMajor_val_two]; rfl
  refine (Ideal.multiReduction_add_single (φ := .f32) _ _ reduces_S1x768_S1 _ _ (ix1 0)).trans ?_
  refine Finset.sum_congr rfl fun k _ => ?_
  have e : reduces_S1x768_S1.lift (ix1 (0 : Fin 1)) k = ix2 (0 : Fin 1) (k : Fin 768) :=
    funext fun a => Fin.ext (by match a with | ⟨0, _⟩ => rfl | ⟨1, _⟩ => rfl)
  rw [e]; rfl

/-- Row i of the weights, cut out as a [1, 768] slice. -/
theorem wrow_apply (v7 : FVec Ideal S4x768 .f32) (i : Fin 4) (h : S4x768.Slices ![i.val, 0] S1x768) (c : Fin 768) :
    extractStridedSlice S1x768 ![i.val, 0] v7 h (ix2 0 c) = v7 (ix2 i c) :=
  extractStridedSlice_apply _ v7 h (ix2 0 c) (ix2 i c) fun a => by
    match a with
    | ⟨0, _⟩ => show i.val = i.val + 0; omega
    | ⟨1, _⟩ => show c.val = 0 + c.val; omega

/-- Entry i of the bias, cut out as a one-element slice and extracted. -/
theorem bias_apply (v8 : FVec Ideal S4 .f32) (i : Fin 4) (h : S4.Slices ![i.val] S1) :
    extractAt ![0] (extractStridedSlice S1 ![i.val] v8 h) inpos_S1_p0 = v8 (ix1 i) := by
  unfold extractAt
  exact extractStridedSlice_apply _ v8 h _ (ix1 i) fun a => by
    match a with
    | ⟨0, _⟩ => show i.val = i.val + 0; omega

/-- A gate's arithmetic over the loaded blocks: the pooled slab against a row of the weights, plus the bias entry. -/
theorem gate_apply (v0 : FVec Ideal S1x1024x768 .f32) (v7 : FVec Ideal S4x768 .f32) (v8 : FVec Ideal S4 .f32) (i : Fin 4)
    (hw : S4x768.Slices ![i.val, 0] S1x768) (hb : S4.Slices ![i.val] S1) :
    addf (shapeCast S1x1 (multiReduction (F := Ideal) .add [1] S1 (mulf (k0_pay4 v0) (extractStridedSlice S1x768 ![i.val, 0] v7 hw)) 0x00000000#32 reduces_S1x768_S1 (.inl rfl) rfl) shapeCasts_S1_S1x1)
        (broadcast S1x1 (extractAt ![0] (extractStridedSlice S1 ![i.val] v8 hb) inpos_S1_p0)) (ix2 0 0)
      = gate (slab v0) v7 v8 i := by
  refine (rowdot_apply _ _ _).trans ?_
  unfold gate
  rw [bias_apply v8 i hb]
  refine congrArg (· + v8 (ix1 i)) ?_
  refine Finset.sum_congr rfl fun c _ => ?_
  rw [pay4_apply v0 c, wrow_apply v7 i hw c]

theorem pay5_apply (v0 : FVec Ideal S1x1024x768 .f32) (v7 : FVec Ideal S4x768 .f32) (v8 : FVec Ideal S4 .f32) :
    k0_pay5 (F := Ideal) v0 v7 v8 (ix2 0 0) = gate (slab v0) v7 v8 0 :=
  gate_apply v0 v7 v8 0 slices_S4x768_o0_0_S1x768 slices_S4_o0_S1

theorem pay6_apply (v0 : FVec Ideal S1x1024x768 .f32) (v7 : FVec Ideal S4x768 .f32) (v8 : FVec Ideal S4 .f32) :
    k0_pay6 (F := Ideal) v0 v7 v8 (ix2 0 0) = gate (slab v0) v7 v8 1 :=
  gate_apply v0 v7 v8 1 slices_S4x768_o1_0_S1x768 slices_S4_o1_S1

theorem pay7_apply (v0 : FVec Ideal S1x1024x768 .f32) (v7 : FVec Ideal S4x768 .f32) (v8 : FVec Ideal S4 .f32) :
    k0_pay7 (F := Ideal) v0 v7 v8 (ix2 0 0) = gate (slab v0) v7 v8 2 :=
  gate_apply v0 v7 v8 2 slices_S4x768_o2_0_S1x768 slices_S4_o2_S1

theorem pay8_apply (v0 : FVec Ideal S1x1024x768 .f32) (v7 : FVec Ideal S4x768 .f32) (v8 : FVec Ideal S4 .f32) :
    k0_pay8 (F := Ideal) v0 v7 v8 (ix2 0 0) = gate (slab v0) v7 v8 3 :=
  gate_apply v0 v7 v8 3 slices_S4x768_o3_0_S1x768 slices_S4_o3_S1

end Cert.KernelIdeal.Block

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.KernelMerge.lean ====
/-
  The kernel's merge of the four readings, read at an index at the ideal values.

  The layout steps each read one entry of their operand: the transpose exchanges the square's two axes, flattening the
  last two axes of a [32, 32, 768] array puts entry (b, c) at column 768·b + c, a gate broadcast over the block is the
  gate everywhere. The product with the reversal matrix into the zero accumulator reverses the rows, because a row of
  the matrix has a single 1, at the mirrored column, and 0·z = 0 for every extended real z. The square with both axes
  reversed is obtained by reversing rows, transposing, reversing rows again and transposing back.
-/
import proofs.«130712_j36206574305366_2_alg».proof.Proof.Gen.KernelIdeal.Skeleton
import proofs.«130712_j36206574305366_2_alg».proof.Proof.Spec
import proofs.«130712_j36206574305366_2_alg».proof.Proof.LibMatmulPlain
import Idealize.ShloMosaic.Lib.Pipeline.Value
import Idealize.ShloMosaic.Lib.ValueIdx
import Idealize.ShloMosaic.PureOps.Ideal.Laws

noncomputable section

open scoped BigOperators

namespace Cert.KernelIdeal.Merge

open Idealize.ShloMosaic Idealize.ShloMosaic.ValueIdx Cert.KernelIdeal Cert.KernelIdeal.Gen Cert.ScanMerge

/-- The column of a [32, 32·768] row that holds entry (b, c) of a [32, 768] plane: 768·b + c. -/
def col (b : Fin 32) (c : Fin 768) : Fin 24576 := ⟨768 * b.val + c.val, by have := b.isLt; have := c.isLt; omega⟩

/-- The square transposed: rows and columns exchanged, channels kept. -/
theorem transpose_apply3 (Z : FVec Ideal S32x32x768 .f32) (a b : Fin 32) (c : Fin 768) :
    transpose S32x32x768 [1, 0, 2] Z transposes_S32x32x768_p1_0_2_S32x32x768 (ix3 a b c) = Z (ix3 b a c) :=
  transpose_apply [1, 0, 2] Z _ (ix3 a b c) (ix3 b a c) fun d => by
    match d with
    | ⟨0, _⟩ => rfl
    | ⟨1, _⟩ => rfl
    | ⟨2, _⟩ => rfl

/-- A [32, 32, 768] array flattened to [32, 32·768] keeps row a and lays plane entry (b, c) at column 768·b + c. -/
theorem flatten_apply (Z : FVec Ideal S32x32x768 .f32) (a b : Fin 32) (c : Fin 768) :
    shapeCast S32x24576 Z shapeCasts_S32x32x768_S32x24576 (ix2 a (col b c)) = Z (ix3 a b c) :=
  shapeCast_apply Z _ (ix2 a (col b c)) (ix3 a b c) (by
    rw [Shape.rowMajor_val_three, Shape.rowMajor_val_two]
    show (a.val * 32 + b.val) * 768 + c.val = a.val * 24576 + (768 * b.val + c.val)
    omega)

/-- And back. -/
theorem unflatten_apply (Y : FVec Ideal S32x24576 .f32) (a b : Fin 32) (c : Fin 768) :
    shapeCast S32x32x768 Y shapeCasts_S32x24576_S32x32x768 (ix3 a b c) = Y (ix2 a (col b c)) :=
  shapeCast_apply Y _ (ix3 a b c) (ix2 a (col b c)) (by
    rw [Shape.rowMajor_val_three, Shape.rowMajor_val_two]
    show a.val * 24576 + (768 * b.val + c.val) = (a.val * 32 + b.val) * 768 + c.val
    omega)

/-- The product of the reversal matrix with a [32, 32·768] array, into the zero accumulator, is the array with its rows
    in reverse order: row a of the product is ∑ k, R(a, k) · Y(k, ·), and R(a, ·) is 1 at 31 − a and 0 elsewhere. -/
theorem reversal_matmul (R : FVec Ideal S32x32 .f32) (Y : FVec Ideal S32x24576 .f32)
    (hR : ∀ p k : Fin 32, R (ix2 p k) = if p.val + k.val = 31 then 1 else 0) (a : Fin 32) (j : Fin 24576) :
    matmul dot_S32x32_S32x24576_S32x24576_1_0_0_1_n_n (some .fp32) R Y (constant (F := Ideal) S32x24576 .f32 0x00000000#32) (ix2 a j)
      = Y (ix2 (rv32 a) j) :=
  (Cert.LibMatmulPlain.matmul_plain_zero_apply (m := 32) (k := 32) (n := 24576) (some .fp32) R Y a j).trans
    (sum_reversal (fun p k => R (ix2 p k)) hR (fun k => Y (ix2 k j)) a)

/-- Flatten, multiply by the reversal matrix, unflatten: the rows of the square in reverse order. -/
theorem flip_apply (R : FVec Ideal S32x32 .f32) (Z : FVec Ideal S32x32x768 .f32)
    (hR : ∀ p k : Fin 32, R (ix2 p k) = if p.val + k.val = 31 then 1 else 0) (a b : Fin 32) (c : Fin 768) :
    shapeCast S32x32x768 (matmul dot_S32x32_S32x24576_S32x24576_1_0_0_1_n_n (some .fp32) R
        (shapeCast S32x24576 Z shapeCasts_S32x32x768_S32x24576) (constant (F := Ideal) S32x24576 .f32 0x00000000#32))
      shapeCasts_S32x24576_S32x32x768 (ix3 a b c) = Z (ix3 (rv32 a) b c) := by
  rw [unflatten_apply, reversal_matmul R _ hR, flatten_apply]

/-- A gate, a [1, 1] array, broadcast over the whole [32, 32, 768] block, reads the gate everywhere. -/
theorem gate_bcast (g : FVec Ideal S1x1 .f32) (a b : Fin 32) (c : Fin 768) :
    broadcastTo S32x32x768 (shapeCast S1x1x1 g shapeCasts_S1x1_S1x1x1) broadcasts_S1x1x1_S32x32x768 (ix3 a b c) = g (ix2 0 0) := by
  refine (broadcastTo_apply _ broadcasts_S1x1x1_S32x32x768 (ix3 a b c) (ix3 0 0 0) fun d => ?_).trans ?_
  · match d with
    | ⟨0, _⟩ => rfl
    | ⟨1, _⟩ => rfl
    | ⟨2, _⟩ => rfl
  · exact shapeCast_apply g _ (ix3 0 0 0) (ix2 0 0) (by rw [Shape.rowMajor_val_two, Shape.rowMajor_val_three]; rfl)

/-- The square laid back out as the [1, 1024, 768] block: position 32·s + t holds entry (s, t). -/
theorem out_apply (Z : FVec Ideal S32x32x768 .f32) (s t : Fin 32) (c : Fin 768) :
    shapeCast S1x1024x768 (shapeCast S1024x768 Z shapeCasts_S32x32x768_S1024x768) shapeCasts_S1024x768_S1x1024x768 (ix3 0 (pos s t) c)
      = Z (ix3 s t c) := by
  refine (shapeCast_apply _ shapeCasts_S1024x768_S1x1024x768 (ix3 0 (pos s t) c) (ix2 (pos s t) c) ?_).trans ?_
  · rw [Shape.rowMajor_val_two, Shape.rowMajor_val_three]
    show (32 * s.val + t.val) * 768 + c.val = (0 * 1024 + (32 * s.val + t.val)) * 768 + c.val
    omega
  · refine shapeCast_apply Z shapeCasts_S32x32x768_S1024x768 (ix2 (pos s t) c) (ix3 s t c) ?_
    rw [Shape.rowMajor_val_three, Shape.rowMajor_val_two]
    show (s.val * 32 + t.val) * 768 + c.val = (32 * s.val + t.val) * 768 + c.val
    omega

/-- What the body stores, at position 32·s + t and channel c, over the square v2, the four gates and the reversal matrix:
    the square and the square with both axes reversed under gates 0 and 2, plus the transposes of both under gates 1 and 3.
    Reversing both axes is two row reversals with a transpose before, between and after them. -/
theorem pay1_apply (v2 : FVec Ideal S32x32x768 .f32) (g0 g1 g2 g3 : FVec Ideal S1x1 .f32) (R : FVec Ideal S32x32 .f32)
    (hR : ∀ p k : Fin 32, R (ix2 p k) = if p.val + k.val = 31 then 1 else 0) (s t : Fin 32) (c : Fin 768) :
    k0_pay1 (F := Ideal) v2 g0 g1 g2 g3 R
        (shapeCast S32x24576 (transpose S32x32x768 [1, 0, 2] v2 transposes_S32x32x768_p1_0_2_S32x32x768) shapeCasts_S32x32x768_S32x24576)
        (constant S32x24576 .f32 0x00000000#32) (ix3 0 (pos s t) c)
      = (g0 (ix2 0 0) * v2 (ix3 s t c) + g2 (ix2 0 0) * v2 (ix3 (rv32 s) (rv32 t) c))
        + (g1 (ix2 0 0) * v2 (ix3 t s c) + g3 (ix2 0 0) * v2 (ix3 (rv32 t) (rv32 s) c)) := by
  unfold k0_pay1
  dsimp only
  rw [out_apply, addf_apply, transpose_apply3]
  simp only [addf_apply, mulf_apply, gate_bcast, flip_apply R _ hR]
  rw [transpose_apply3, transpose_apply3]
  simp only [flip_apply R _ hR]
  rw [transpose_apply3, transpose_apply3]

end Cert.KernelIdeal.Merge

end
-- ==== Proof.KernelOut.lean ====
/-
  What the kernel's body leaves in its output block, as the merge of the slab it loaded.

  The body's one store covers the whole block, so the block after the body is the stored value. At position 32·s + t
  and channel c the stored value is
      (g0·x(s, t) + g2·x(31 − s, 31 − t)) + (g1·x(t, s) + g3·x(31 − t, 31 − s)),
  the four summands of the merge grouped in pairs; regrouping them one after the other is the specification.
-/
import proofs.«130712_j36206574305366_2_alg».proof.Proof.Gen.KernelIdeal.Frame
import proofs.«130712_j36206574305366_2_alg».proof.Proof.KernelBlock
import proofs.«130712_j36206574305366_2_alg».proof.Proof.KernelMerge

noncomputable section

open scoped BigOperators

namespace Cert.KernelIdeal.Out

open Idealize.ShloMosaic Idealize.ShloMosaic.ValueIdx Cert.KernelIdeal Cert.KernelIdeal.Gen Cert.ScanMerge
open Cert.KernelIdeal.Block Cert.KernelIdeal.Merge

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The loaded block as the 32×32 square: entry (s, t) is the block at position 32·s + t. -/
theorem pay3_apply (v0 : FVec Ideal S1x1024x768 .f32) (s t : Fin 32) (c : Fin 768) :
    k0_pay3 (F := Ideal) v0 (ix3 s t c) = v0 (ix3 0 (pos s t) c) := by
  unfold k0_pay3
  refine (shapeCast_apply _ shapeCasts_S1024x768_S32x32x768 (ix3 s t c) (ix2 (pos s t) c) ?_).trans (pay2_apply v0 (pos s t) c)
  rw [Shape.rowMajor_val_two, Shape.rowMajor_val_three]
  show (32 * s.val + t.val) * 768 + c.val = (s.val * 32 + t.val) * 768 + c.val
  omega

/-- What the body leaves in the output block, from the blocks it loaded: the merge of the loaded slab, when the fourth
    operand is the reversal matrix. The body adds the two untransposed readings first and the two transposed ones
    second; the merge adds the four one after the other. -/
theorem out_block (x0 : FVec Ideal S1x1024x768 .f32) (x1 : FVec Ideal S4x768 .f32) (x2 : FVec Ideal S4 .f32)
    (x3 : FVec Ideal S32x32 .f32)
    (hR : ∀ p k : Fin 32, x3 (ix2 p k) = if p.val + k.val = 31 then 1 else 0) (n : Fin 1024) (ch : Fin 768) :
    out0_4 (F := Ideal) x0 x1 x2 x3 (ix3 0 n ch) = mergeSlab (slab x0) x1 x2 n ch := by
  unfold out0_4
  rw [View.canon_unit_zero hz3]
  simp only [View.ld_unit_zero (S := S1x1024x768) hz3, View.ld_unit_zero (S := S4x768) hz2, View.ld_unit_zero (S := S4) hz1,
    View.ld_unit_zero (S := S32x32) hz2]
  obtain ⟨s, t, rfl⟩ : ∃ s t : Fin 32, n = pos s t := ⟨_, _, (pos_div_mod n).symm⟩
  refine (pay1_apply (k0_pay3 x0) _ _ _ _ x3 hR s t ch).trans ?_
  rw [pay5_apply, pay6_apply, pay7_apply, pay8_apply, pay3_apply, pay3_apply, pay3_apply, pay3_apply]
  unfold mergeSlab
  rw [tr_pos, rv_pos, rv_pos]
  exact regroup _ _ _ _

end Cert.KernelIdeal.Out

end
-- ==== Proof.KernelArray.lean ====
/-
  From the kernel's blocks to its result array.

  The grid has 32 points, one per batch element. At point t the input window holds batch element t, the weights, the
  bias and the constant matrix are held whole, and the output window's block is batch element t of the result. The
  constant the host writes before the region is the 32×32 reversal matrix: its 1024 words, checked one by one, are the
  pattern of 1.0 where row and column add up to 31 and zero elsewhere. So each point writes back the block of the merge,
  the 32 blocks tile the result, and the result array after the run is the merge of the argument arrays.
-/
import proofs.«130712_j36206574305366_2_alg».proof.Proof.Gen.KernelIdeal.Value
import proofs.«130712_j36206574305366_2_alg».proof.Proof.KernelOut
import Idealize.ShloMosaic.Lib.Pipeline.Value
import Idealize.ShloMosaic.Lib.StableHlo.Run
import Idealize.ShloMosaic.PureOps.IdealRules

noncomputable section

open scoped BigOperators

namespace Cert.KernelIdeal.Hand

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Value Cert.ScanMerge Cert.KernelIdeal.Out Cert.KernelIdeal.Block

variable (m : (ℓ : Loc nD τ sig) → Buf (Elt Ideal) ℓ) (ρ : Dev nD → PrngReg)

/-! ## The reversal matrix -/

/-- The 1024 words of the constant, row-major: the pattern of 1.0 where row and column add up to 31, zero elsewhere. -/
theorem lit_fact : ∀ i : Fin 1024, lit0 i = if i.val / 32 + i.val % 32 = 31 then 0x3F800000#32 else 0x00000000#32 := by
  decide +kernel

/-- The constant array as the kernel's region finds it is the reversal matrix: 1 on the anti-diagonal, 0 elsewhere. -/
theorem V_cst_apply (c : Dev nD) (p k : Fin 32) :
    (V m c main_cst : S32x32.Idx → EReal) (ix2 p k) = (if p.val + k.val = 31 then (1 : EReal) else 0) := by
  have e : (V m c main_cst : S32x32.Idx → EReal) = fun i => Ideal.ofBits .f32 (lit0 (S32x32.rowMajor i)) := by
    dsimp only [Gen.V, Gen.hostOps0]; after_results; rfl
  rw [e]
  have hp := p.isLt; have hk := k.isLt
  have hr : S32x32.rowMajor (ix2 p k) = (⟨32 * p.val + k.val, by omega⟩ : Fin 1024) :=
    Fin.ext (by rw [Shape.rowMajor_val_two]; show p.val * 32 + k.val = 32 * p.val + k.val; omega)
  show Ideal.ofBits .f32 (lit0 (S32x32.rowMajor (ix2 p k))) = (if p.val + k.val = 31 then (1 : EReal) else 0)
  rw [hr, lit_fact]
  show Ideal.ofBits .f32 (if (32 * p.val + k.val) / 32 + (32 * p.val + k.val) % 32 = 31 then 0x3F800000#32 else 0x00000000#32) = _
  by_cases h : p.val + k.val = 31
  · rw [if_pos (by omega), if_pos h]; exact IdealRules.sign_bit.ideal_onePat .f32
  · rw [if_neg (by omega), if_neg h]; exact Ideal.ofBits_zero_f32

/-! ## The blocks -/

/-- The printed index maps over the grid: the input and the output move one batch element per point, the weights, the
    bias and the reversal matrix stay. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- A grid point as a batch element. -/
def batch (t : Fin cfg0.N) : Fin 32 := ⟨t.val, by have h := t.isLt; have hN : cfg0.N = 32 := N_0; omega⟩

/-- The input window's block at point t is batch element t of the input. -/
theorem iblk0_apply (c : Dev nD) (t : Fin cfg0.N) (n : Fin 1024) (ch : Fin 768) :
    (iblk m c 0 t : S1x1024x768.Idx → EReal) (ix3 0 n ch) = (V m c main_arg0 : S32x1024x768.Idx → EReal) (ix3 (batch t) n ch) := by
  unfold iblk
  rw [View.read_apply]
  show V m c main_arg0 (((cfg0.win 0).blk t).view.emb (ix3 0 n ch)) = V m c main_arg0 (ix3 (batch t) n ch)
  obtain ⟨e0, e1, e2, -⟩ := idx_facts t
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 768 + 1 * ch.val = ch.val; omega

/-- The weights' window holds the whole array at every point. -/
theorem iblk1_eq (c : Dev nD) (t : Fin cfg0.N) :
    (iblk m c 1 t : S4x768.Idx → EReal) = (V m c main_arg1 : S4x768.Idx → EReal) := by
  funext y
  unfold iblk
  rw [View.read_apply]
  show V m c main_arg1 (((cfg0.win 1).blk t).view.emb y) = V m c main_arg1 y
  obtain ⟨-, -, -, e0, e1, -⟩ := idx_facts t
  refine congrArg (V m c main_arg1) (funext fun a => Fin.ext ?_)
  match a with
  | ⟨0, _⟩ => show win0_1.index t (0 : Fin 2) * 4 + 1 * (y 0).val = (y 0).val; omega
  | ⟨1, _⟩ => show win0_1.index t (1 : Fin 2) * 768 + 1 * (y 1).val = (y 1).val; omega

/-- The bias's window likewise. -/
theorem iblk2_eq (c : Dev nD) (t : Fin cfg0.N) :
    (iblk m c 2 t : S4.Idx → EReal) = (V m c main_arg2 : S4.Idx → EReal) := by
  funext y
  unfold iblk
  rw [View.read_apply]
  show V m c main_arg2 (((cfg0.win 2).blk t).view.emb y) = V m c main_arg2 y
  obtain ⟨-, -, -, -, -, e0, -⟩ := idx_facts t
  refine congrArg (V m c main_arg2) (funext fun a => Fin.ext ?_)
  match a with
  | ⟨0, _⟩ => show win0_2.index t (0 : Fin 1) * 4 + 1 * (y 0).val = (y 0).val; omega

/-- The fourth window holds the reversal matrix at every point. -/
theorem iblk3_apply (c : Dev nD) (t : Fin cfg0.N) (p k : Fin 32) :
    (iblk m c 3 t : S32x32.Idx → EReal) (ix2 p k) = (if p.val + k.val = 31 then (1 : EReal) else 0) := by
  unfold iblk
  rw [View.read_apply]
  show V m c main_cst (((cfg0.win 3).blk t).view.emb (ix2 p k)) = _
  obtain ⟨-, -, -, -, -, -, e0, e1, -⟩ := idx_facts t
  have h : ((cfg0.win 3).blk t).view.emb (ix2 p k) = ix2 p k := funext fun a => Fin.ext (by
    match a with
    | ⟨0, _⟩ => show win0_3.index t (0 : Fin 2) * 32 + 1 * p.val = p.val; omega
    | ⟨1, _⟩ => show win0_3.index t (1 : Fin 2) * 32 + 1 * k.val = k.val; omega)
  rw [h]
  exact V_cst_apply m c p k

/-! ## From the blocks to the array -/

/-- What point t writes back is block t of the merge of the arrays as the region finds them. -/
theorem flushed_eq (c : Dev nD) (t : Fin cfg0.N) :
    (dats m 0 c).flushed 4 t = ((cfg0.win 4).blk t).view.read (Elt Ideal)
      (merged (V m c main_arg0) (V m c main_arg1) (V m c main_arg2)) := by
  rw [Value.flushed4]
  funext y
  obtain ⟨n, ch, rfl⟩ : ∃ (n : Fin 1024) (ch : Fin 768), y = ix3 0 n ch :=
    ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
  show out0_4 (iblk m c 0 t) (iblk m c 1 t) (iblk m c 2 t) (iblk m c 3 t) (ix3 0 n ch)
    = merged (V m c main_arg0) (V m c main_arg1) (V m c main_arg2) (((cfg0.win 4).blk t).view.emb (ix3 0 n ch))
  refine (out_block (iblk m c 0 t) (iblk m c 1 t) (iblk m c 2 t) (iblk m c 3 t) (iblk3_apply m c t) n ch).trans ?_
  obtain ⟨-, -, -, -, -, -, -, -, e0, e1, e2⟩ := idx_facts t
  have h4 : ((cfg0.win 4).blk t).view.emb (ix3 0 n ch) = ix3 (batch t) n ch := funext fun a => Fin.ext (by
    match a with
    | ⟨0, _⟩ => show win0_4.index t (0 : Fin 3) * 1 + 1 * 0 = t.val; omega
    | ⟨1, _⟩ => show win0_4.index t (1 : Fin 3) * 1024 + 1 * n.val = n.val; omega
    | ⟨2, _⟩ => show win0_4.index t (2 : Fin 3) * 768 + 1 * ch.val = ch.val; omega)
  rw [h4]
  show mergeSlab (slab (iblk m c 0 t)) (iblk m c 1 t) (iblk m c 2 t) n ch
    = mergeSlab (fun n c' => (V m c main_arg0 : S32x1024x768.Idx → EReal) (ix3 (batch t) n c')) (V m c main_arg1) (V m c main_arg2) n ch
  have hs : slab (iblk m c 0 t) = fun n c' => (V m c main_arg0 : S32x1024x768.Idx → EReal) (ix3 (batch t) n c') :=
    funext fun n => funext fun c' => iblk0_apply m c t n c'
  rw [hs, iblk1_eq m c t, iblk2_eq m c t]

/-- An index of the array is in point t's block iff each coordinate is in the block's range on its axis. -/
theorem mem_blk (t : Fin cfg0.N) (i : S32x1024x768.Idx) :
    i ∈ ((cfg0.win 4).blk t).view.set ↔ ∀ a : Fin 3, win0_4.index t a * S1x1024x768.size a ≤ (i a).val
      ∧ (i a).val < win0_4.index t a * S1x1024x768.size a + S1x1024x768.size a := by
  show i ∈ ((View.whole main_v0).slice (win0_4.rect t)).set ↔ _
  rw [View.set_slice_whole, Rect.mem_set_unit]
  exact Iff.rfl

/-- Every index of the result is in the block of the point of its batch element. -/
theorem cover (i : S32x1024x768.Idx) :
    ∃ t : Fin cfg0.N, (cfg0.win 4).flush t = true ∧ i ∈ ((cfg0.win 4).blk t).view.set := by
  have h0 : (i 0).val < 32 := (i 0).isLt
  have h1 : (i 1).val < 1024 := (i 1).isLt
  have h2 : (i 2).val < 768 := (i 2).isLt
  have hN : cfg0.N = 32 := N_0
  obtain ⟨t, ht⟩ : ∃ t : Fin cfg0.N, t.val = (i 0).val := ⟨⟨(i 0).val, by omega⟩, rfl⟩
  refine ⟨t, flush0_4 t, ?_⟩
  rw [mem_blk]
  obtain ⟨-, -, -, -, -, -, -, -, e0, e1, e2⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 768 ≤ (i 2).val ∧ (i 2).val < win0_4.index t (2 : Fin 3) * 768 + 768; omega

/-- The result array after the run is the merge of the argument arrays. -/
theorem final (c : Dev nD) : (dats m 0 c).arrAt 4 cfg0.N
    = merged (m ((c : Thread nD τ).loc main_arg0)) (m ((c : Thread nD τ).loc main_arg1)) (m ((c : Thread nD τ).loc main_arg2)) := by
  have h := (dats m 0 c).arrAt_eq_of_cover 4 (merged (V m c main_arg0) (V m c main_arg1) (V m c main_arg2))
    (fun t _ => flushed_eq m c t) cover
  rw [V_main_arg0, V_main_arg1, V_main_arg2] at h
  exact h

/-- The kernel's run, read: the result array at the merge of the arguments, the arguments unchanged. -/
theorem run : θ_run defs (onTc (τ := τ) (main (F := Ideal))) ⟨m, fun _ => 0, ρ⟩ fun r => ∀ c : Dev nD,
      r.2.mem ((c : Thread nD τ).loc main_v0)
        = merged (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Hand

end
-- ==== Proof.RefGate.lean ====
/-
  The reference's pooled mean and gates, read at an index at the ideal values.

  The reference moves channels before positions and reshapes the 1024 positions into the 32×32 square, so entry
  (bb, c, p, q) of that array is the input at position 32·p + q. Its mean sums over both axes of the square at once: the
  indices that reduce to (bb, c) are (bb, c, n / 32, n % 32) for n < 1024, a bijection with the positions, so the sum is
  the sum over the positions. The gates are the product of the means with the transposed weights, plus the bias.
-/
import proofs.«130712_j36206574305366_2_alg».proof.Proof.Gen.ReferenceIdeal.Read
import proofs.«130712_j36206574305366_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.Hand

open Idealize.ShloMosaic Idealize.ShloMosaic.ValueIdx Cert.ReferenceIdeal Cert.ReferenceIdeal.Gen Cert.ReferenceIdeal.Read Cert.ScanMerge

/-- The input with channels before positions and the positions as a 32×32 square: entry (bb, c, p, q) is the input at
    batch bb, position 32·p + q, channel c. -/
theorem v1_at (x : (⟨S32x1024x768, .f32⟩ : BufTy).Contents (Elt Ideal)) (bb : Fin 32) (c : Fin 768) (p q : Fin 32) :
    val_main_v1 (F := Ideal) x (ix4 bb c p q) = x (ix3 bb (pos p q) c) := by
  rw [val_main_v1_apply, val_main_v0_apply]
  refine congrArg x (funext fun a => Fin.ext ?_)
  have hb := bb.isLt; have hc := c.isLt; have hp := p.isLt; have hq := q.isLt
  match a with
  | ⟨0, _⟩ => show (((bb.val * 768 + c.val) * 32 + p.val) * 32 + q.val) / 786432 = bb.val; omega
  | ⟨1, _⟩ => show (((bb.val * 768 + c.val) * 32 + p.val) * 32 + q.val) % 1024 = 32 * p.val + q.val; omega
  | ⟨2, _⟩ => show (((bb.val * 768 + c.val) * 32 + p.val) * 32 + q.val) / 1024 % 768 = c.val; omega

/-- The sum over the square's two axes, at batch bb and channel c: the sum over all 1024 positions. The indices of the
    [32, 768, 32, 32] array that reduce to (bb, c) are exactly (bb, c, n / 32, n % 32) for n < 1024. -/
theorem v2_at (x : (⟨S32x1024x768, .f32⟩ : BufTy).Contents (Elt Ideal)) (bb : Fin 32) (c : Fin 768) :
    val_main_v2 (F := Ideal) x (ix2 bb c) = ∑ n : Fin 1024, x (ix3 bb n c) := by
  unfold val_main_v2
  show Ideal.hostReduceAdd reducesTo_S32x768x32x32_S32x768_d2_3 (val_main_v1 (F := Ideal) x) (Ideal.ofBits .f32 0x00000000#32) (ix2 bb c) = _
  unfold Ideal.hostReduceAdd
  rw [Ideal.ofBits_zero_f32, zero_add]
  have hdrop : ∀ (i : S32x768x32x32.Idx), reducesTo_S32x768x32x32_S32x768_d2_3.drop i = ix2 bb c ↔ ((i 0).val = bb.val ∧ (i 1).val = c.val) := by
    intro i
    constructor
    · intro h
      have h0 := congrArg (fun j => (j 0).val) h
      have h1 := congrArg (fun j => (j 1).val) h
      exact ⟨((Shape.ReducesTo.drop_apply_val_of_eq reducesTo_S32x768x32x32_S32x768_d2_3 i 0 0).symm.trans h0),
             ((Shape.ReducesTo.drop_apply_val_of_eq reducesTo_S32x768x32x32_S32x768_d2_3 i 1 1).symm.trans h1)⟩
    · rintro ⟨h0, h1⟩
      funext a
      apply Fin.ext
      match a with
      | ⟨0, _⟩ => exact (Shape.ReducesTo.drop_apply_val_of_eq reducesTo_S32x768x32x32_S32x768_d2_3 i 0 0).trans h0
      | ⟨1, _⟩ => exact (Shape.ReducesTo.drop_apply_val_of_eq reducesTo_S32x768x32x32_S32x768_d2_3 i 1 1).trans h1
  refine Finset.sum_nbij' (fun i => (⟨32 * (i 2).val + (i 3).val, by
        have h2 : (i 2).val < 32 := (i 2).isLt; have h3 : (i 3).val < 32 := (i 3).isLt; omega⟩ : Fin 1024))
      (fun n => ix4 bb c (⟨n.val / 32, by have := n.isLt; omega⟩ : Fin 32) (⟨n.val % 32, Nat.mod_lt _ (by decide)⟩ : Fin 32)) ?_ ?_ ?_ ?_ ?_
  · intro i _; exact Finset.mem_univ _
  · intro n _
    exact Finset.mem_filter.2 ⟨Finset.mem_univ _, (hdrop _).2 ⟨rfl, rfl⟩⟩
  · intro i hi
    obtain ⟨h0, h1⟩ := (hdrop i).1 (Finset.mem_filter.1 hi).2
    have h2 : (i 2).val < 32 := (i 2).isLt
    have h3 : (i 3).val < 32 := (i 3).isLt
    funext a
    apply Fin.ext
    match a with
    | ⟨0, _⟩ => exact h0.symm
    | ⟨1, _⟩ => exact h1.symm
    | ⟨2, _⟩ => show (32 * (i 2).val + (i 3).val) / 32 = (i 2).val; omega
    | ⟨3, _⟩ => show (32 * (i 2).val + (i 3).val) % 32 = (i 3).val; omega
  · intro n _
    apply Fin.ext
    show 32 * (n.val / 32) + n.val % 32 = n.val
    omega
  · intro i hi
    obtain ⟨h0, h1⟩ := (hdrop i).1 (Finset.mem_filter.1 hi).2
    have h2 : (i 2).val < 32 := (i 2).isLt
    have h3 : (i 3).val < 32 := (i 3).isLt
    have e : i = ix4 bb c (⟨(i 2).val, h2⟩ : Fin 32) (⟨(i 3).val, h3⟩ : Fin 32) := by
      funext a
      apply Fin.ext
      match a with
      | ⟨0, _⟩ => exact h0
      | ⟨1, _⟩ => exact h1
      | ⟨2, _⟩ => rfl
      | ⟨3, _⟩ => rfl
    rw [e, v1_at]
    rfl

/-- The pooled mean at batch bb, channel c. -/
theorem v4_at (x : (⟨S32x1024x768, .f32⟩ : BufTy).Contents (Elt Ideal)) (bb : Fin 32) (c : Fin 768) :
    val_main_v4 (F := Ideal) x (ix2 bb c) = slabMean (fun n c => x (ix3 bb n c)) c := by
  rw [val_main_v4_apply, v2_at, val_main_v3_apply, val_main_cst_0_apply]
  rfl

/-- Gate i of batch element bb: the pooled slab against row i of the weights (the reference multiplies by the transposed
    weights, whose entry (c, i) is W(i, c)), plus the bias. -/
theorem v9_at (x : (⟨S32x1024x768, .f32⟩ : BufTy).Contents (Elt Ideal)) (W : (⟨S4x768, .f32⟩ : BufTy).Contents (Elt Ideal))
    (b : (⟨S4, .f32⟩ : BufTy).Contents (Elt Ideal)) (bb : Fin 32) (i : Fin 4) :
    val_main_v9 (F := Ideal) x W b (ix2 bb i) = gate (fun n c => x (ix3 bb n c)) W b i := by
  rw [val_main_v9_apply, val_main_v6_apply, val_main_v8_apply, val_main_v7_apply]
  unfold gate
  show (∑ k : Fin 768, val_main_v4 (F := Ideal) x (lidx_main_v6 (ix2 bb i) k) * val_main_v5 (F := Ideal) W (ridx_main_v6 (ix2 bb i) k))
      + b (idx_main_v7 (idx_main_v8 (ix2 bb i))) = _
  have eb : idx_main_v7 (idx_main_v8 (ix2 bb i)) = ix1 i := funext fun a => Fin.ext (by match a with | ⟨0, _⟩ => rfl)
  rw [eb]
  refine congrArg (· + b (ix1 i)) ?_
  refine Finset.sum_congr rfl fun k _ => ?_
  have el : lidx_main_v6 (ix2 bb i) k = ix2 bb k := funext fun a => Fin.ext (by match a with | ⟨0, _⟩ => rfl | ⟨1, _⟩ => rfl)
  have er : idx_main_v5 (ridx_main_v6 (ix2 bb i) k) = ix2 i k := funext fun a => Fin.ext (by match a with | ⟨0, _⟩ => rfl | ⟨1, _⟩ => rfl)
  rw [el, v4_at, val_main_v5_apply, er]

end Cert.ReferenceIdeal.Hand

end
-- ==== Proof.RefRead.lean ====
/-
  The reference's four readings and its result, read at an index at the ideal values.

  With channels before positions, the row-major reading is the input itself, the column-major one reads position
  32·(n % 32) + n / 32, a reversal along the position axis reads position 1023 − n, and transposing commutes with
  reading backwards. Each gate is sliced out of the array of gates and broadcast. The result adds the four weighted
  readings one after the other and moves positions back before channels: the specification's merge, entry by entry.
-/
import proofs.«130712_j36206574305366_2_alg».proof.Proof.RefGate

noncomputable section

open scoped BigOperators

namespace Cert.ReferenceIdeal.Hand

open Idealize.ShloMosaic Idealize.ShloMosaic.ValueIdx Cert.ReferenceIdeal Cert.ReferenceIdeal.Gen Cert.ReferenceIdeal.Read Cert.ScanMerge

/-- Transposing the square and reading it backwards commute: both send 32·s + t to 32·(31 − t) + (31 − s). -/
theorem tr_rv (n : Fin 1024) : tr (rv n) = rv (tr n) :=
  Fin.ext (by
    have := n.isLt
    show 32 * ((1023 - n.val) % 32) + (1023 - n.val) / 32 = 1023 - (32 * (n.val % 32) + n.val / 32)
    omega)

/-- The row-major reading: channels before positions, the positions flat again. -/
theorem v11_at (x : (⟨S32x1024x768, .f32⟩ : BufTy).Contents (Elt Ideal)) (bb : Fin 32) (c : Fin 768) (n : Fin 1024) :
    val_main_v11 (F := Ideal) x (ix3 bb c n) = x (ix3 bb n c) := by
  rw [val_main_v11_apply]
  have e : idx_main_v11 (ix3 bb c n)
      = ix4 bb c (⟨n.val / 32, by have := n.isLt; omega⟩ : Fin 32) (⟨n.val % 32, Nat.mod_lt _ (by decide)⟩ : Fin 32) :=
    funext fun a => Fin.ext (by
      have hb := bb.isLt; have hc := c.isLt; have hn := n.isLt
      match a with
      | ⟨0, _⟩ => show ((bb.val * 768 + c.val) * 1024 + n.val) / 786432 = bb.val; omega
      | ⟨1, _⟩ => show ((bb.val * 768 + c.val) * 1024 + n.val) / 1024 % 768 = c.val; omega
      | ⟨2, _⟩ => show ((bb.val * 768 + c.val) * 1024 + n.val) / 32 % 32 = n.val / 32; omega
      | ⟨3, _⟩ => show ((bb.val * 768 + c.val) * 1024 + n.val) % 32 = n.val % 32; omega)
  rw [e, v1_at, pos_div_mod]

/-- The column-major reading: the square transposed, then flattened. -/
theorem v13_at (x : (⟨S32x1024x768, .f32⟩ : BufTy).Contents (Elt Ideal)) (bb : Fin 32) (c : Fin 768) (n : Fin 1024) :
    val_main_v13 (F := Ideal) x (ix3 bb c n) = x (ix3 bb (tr n) c) := by
  rw [val_main_v13_apply, val_main_v12_apply]
  have e : idx_main_v12 (idx_main_v13 (ix3 bb c n))
      = ix4 bb c (⟨n.val % 32, Nat.mod_lt _ (by decide)⟩ : Fin 32) (⟨n.val / 32, by have := n.isLt; omega⟩ : Fin 32) :=
    funext fun a => Fin.ext (by
      have hb := bb.isLt; have hc := c.isLt; have hn := n.isLt
      match a with
      | ⟨0, _⟩ => show ((bb.val * 768 + c.val) * 1024 + n.val) / 786432 = bb.val; omega
      | ⟨1, _⟩ => show ((bb.val * 768 + c.val) * 1024 + n.val) / 1024 % 768 = c.val; omega
      | ⟨2, _⟩ => show ((bb.val * 768 + c.val) * 1024 + n.val) % 32 = n.val % 32; omega
      | ⟨3, _⟩ => show ((bb.val * 768 + c.val) * 1024 + n.val) / 32 % 32 = n.val / 32; omega)
  rw [e, v1_at]
  rfl

/-- Reversing the position axis of a [32, 768, 1024] array reads position 1023 − n. -/
theorem reverse_at (y : S32x768x1024.Idx → EReal) (bb : Fin 32) (c : Fin 768) (n : Fin 1024) :
    Host.reverse [2] y (ix3 bb c n) = y (ix3 bb c (rv n)) := by
  unfold Host.reverse
  refine congrArg y (funext fun a => ?_)
  match a with
  | ⟨0, _⟩ => rfl
  | ⟨1, _⟩ => rfl
  | ⟨2, _⟩ =>
    apply Fin.ext
    have := n.isLt
    show 1024 - (n.val + 1) = 1023 - n.val
    omega

theorem v14_at (x : (⟨S32x1024x768, .f32⟩ : BufTy).Contents (Elt Ideal)) (bb : Fin 32) (c : Fin 768) (n : Fin 1024) :
    val_main_v14 (F := Ideal) x (ix3 bb c n) = x (ix3 bb (rv n) c) := by
  unfold val_main_v14
  rw [reverse_at, v11_at]

theorem v15_at (x : (⟨S32x1024x768, .f32⟩ : BufTy).Contents (Elt Ideal)) (bb : Fin 32) (c : Fin 768) (n : Fin 1024) :
    val_main_v15 (F := Ideal) x (ix3 bb c n) = x (ix3 bb (rv (tr n)) c) := by
  unfold val_main_v15
  rw [reverse_at, v13_at, tr_rv]

section Gates
variable (x : (⟨S32x1024x768, .f32⟩ : BufTy).Contents (Elt Ideal)) (W : (⟨S4x768, .f32⟩ : BufTy).Contents (Elt Ideal))
  (b : (⟨S4, .f32⟩ : BufTy).Contents (Elt Ideal)) (bb : Fin 32) (c : Fin 768) (n : Fin 1024)

/-- Each gate, sliced out of the [32, 4, 1, 1] array of gates and broadcast over channels and positions. -/
theorem v18_at : val_main_v18 (F := Ideal) x W b (ix3 bb c n) = gate (fun n c => x (ix3 bb n c)) W b 0 := by
  rw [val_main_v18_apply, val_main_v17_apply, val_main_v16_apply, val_main_v10_apply]
  have e : idx_main_v10 (idx_main_v16 (idx_main_v17 (idx_main_v18 (ix3 bb c n)))) = ix2 bb (0 : Fin 4) :=
    funext fun a => Fin.ext (by
      match a with
      | ⟨0, _⟩ => show ((bb.val * 1 + 0) * 1 + 0) / 1 = bb.val; omega
      | ⟨1, _⟩ => rfl)
  rw [e, v9_at]

theorem v22_at : val_main_v22 (F := Ideal) x W b (ix3 bb c n) = gate (fun n c => x (ix3 bb n c)) W b 1 := by
  rw [val_main_v22_apply, val_main_v21_apply, val_main_v20_apply, val_main_v10_apply]
  have e : idx_main_v10 (idx_main_v20 (idx_main_v21 (idx_main_v22 (ix3 bb c n)))) = ix2 bb (1 : Fin 4) :=
    funext fun a => Fin.ext (by
      match a with
      | ⟨0, _⟩ => show ((bb.val * 1 + 0) * 1 + 0) / 1 = bb.val; omega
      | ⟨1, _⟩ => rfl)
  rw [e, v9_at]

theorem v27_at : val_main_v27 (F := Ideal) x W b (ix3 bb c n) = gate (fun n c => x (ix3 bb n c)) W b 2 := by
  rw [val_main_v27_apply, val_main_v26_apply, val_main_v25_apply, val_main_v10_apply]
  have e : idx_main_v10 (idx_main_v25 (idx_main_v26 (idx_main_v27 (ix3 bb c n)))) = ix2 bb (2 : Fin 4) :=
    funext fun a => Fin.ext (by
      match a with
      | ⟨0, _⟩ => show ((bb.val * 1 + 0) * 1 + 0) / 1 = bb.val; omega
      | ⟨1, _⟩ => rfl)
  rw [e, v9_at]

theorem v32_at : val_main_v32 (F := Ideal) x W b (ix3 bb c n) = gate (fun n c => x (ix3 bb n c)) W b 3 := by
  rw [val_main_v32_apply, val_main_v31_apply, val_main_v30_apply, val_main_v10_apply]
  have e : idx_main_v10 (idx_main_v30 (idx_main_v31 (idx_main_v32 (ix3 bb c n)))) = ix2 bb (3 : Fin 4) :=
    funext fun a => Fin.ext (by
      match a with
      | ⟨0, _⟩ => show ((bb.val * 1 + 0) * 1 + 0) / 1 = bb.val; omega
      | ⟨1, _⟩ => rfl)
  rw [e, v9_at]

end Gates

/-- The reference's result is the merge: the four readings weighted by their gates and added one after the other, then
    positions put back before channels. -/
theorem v35_eq (x : (⟨S32x1024x768, .f32⟩ : BufTy).Contents (Elt Ideal)) (W : (⟨S4x768, .f32⟩ : BufTy).Contents (Elt Ideal))
    (b : (⟨S4, .f32⟩ : BufTy).Contents (Elt Ideal)) :
    val_main_v35 (F := Ideal) x W b = merged x W b := by
  funext j
  obtain ⟨bb, n, c, rfl⟩ : ∃ (bb : Fin 32) (n : Fin 1024) (c : Fin 768), j = ix3 bb n c := ⟨j 0, j 1, j 2, eq_ix3 j⟩
  rw [val_main_v35_apply]
  have e : idx_main_v35 (ix3 bb n c) = ix3 bb c n :=
    funext fun a => Fin.ext (by match a with | ⟨0, _⟩ => rfl | ⟨1, _⟩ => rfl | ⟨2, _⟩ => rfl)
  rw [e, val_main_v34_apply, val_main_v29_apply, val_main_v24_apply, val_main_v19_apply, val_main_v23_apply,
    val_main_v28_apply, val_main_v33_apply, v18_at, v22_at, v27_at, v32_at, v11_at, v13_at, v14_at, v15_at]
  rfl

end Cert.ReferenceIdeal.Hand

end
-- ==== Proof.lean ====
/-
  The four-direction scan merge: a fused kernel against the plain array program, equal at the ideal values.

  Both programs read x : [32, 1024, 768] (batch, position, channel), W : [4, 768] and b : [4]. Per batch element the 1024
  positions are a 32×32 square, n = 32·s + t. Four readings of the square are merged: the square itself, its transpose,
  the square read backwards (n ↦ 1023 − n) and the transpose read backwards, each weighted by a gate
      gate(i) = (∑ c, ((∑ n, x(n, c)) / 1024) · W(i, c)) + b(i),
  one scalar per batch element and direction (Proof/Spec.lean states the merge as one function of the three arrays).

  The reference transposes channels before positions, reshapes to the square, sums over the square's two axes for the
  mean, takes the gates by a matrix product with the transposed weights, builds the four readings by a transpose, two
  reshapes and two reversals, and adds the four weighted readings one after the other. Its pooled sum runs over the
  indices of a [32, 768, 32, 32] array that reduce to (batch, channel); they are exactly the 1024 positions
  (Proof/RefGate.lean), and each reading is the input at a re-indexed position (Proof/RefRead.lean).

  The kernel works on one batch element per grid point. It sums the slab over its positions, takes the gates as lane
  sums, and reverses the square's rows by a matrix product with the 32×32 reversal matrix (ones on the anti-diagonal),
  a constant the host passes in: a row of that product is ∑ k, R(a, k)·Y(k, ·) = Y(31 − a, ·), since 0·z = 0 and
  1·z = z on every extended real. Reversing both axes is two such products with a transpose before, between and after
  them. It adds the two untransposed readings, adds the two transposed ones, and adds the sums (Proof/KernelBlock.lean,
  Proof/KernelMerge.lean, Proof/KernelOut.lean); the blocks the grid points write back tile the result
  (Proof/KernelArray.lean).

  The two sides differ only in the grouping of four summands and in how a sum is indexed, so no finiteness of the
  inputs is used: addition of extended reals is commutative and associative at the infinities too. The divisor 1024.0
  is the same bit pattern on both sides and is never evaluated. The pass that idealizes the kernel rewrote nothing,
  so there is nothing to preserve.
-/
import proofs.«130712_j36206574305366_2_alg».proof.Defs
import proofs.«130712_j36206574305366_2_alg».proof.Proof.Gen.Kernel
import proofs.«130712_j36206574305366_2_alg».proof.Proof.Gen.Kernel.Skeleton
import proofs.«130712_j36206574305366_2_alg».proof.Proof.Gen.Kernel.Launch
import proofs.«130712_j36206574305366_2_alg».proof.Proof.Gen.Kernel.Points
import proofs.«130712_j36206574305366_2_alg».proof.Proof.Gen.Kernel.Frame
import proofs.«130712_j36206574305366_2_alg».proof.Proof.Gen.KernelIdeal
import proofs.«130712_j36206574305366_2_alg».proof.Proof.Gen.KernelIdeal.Skeleton
import proofs.«130712_j36206574305366_2_alg».proof.Proof.Gen.KernelIdeal.Launch
import proofs.«130712_j36206574305366_2_alg».proof.Proof.Gen.KernelIdeal.Points
import proofs.«130712_j36206574305366_2_alg».proof.Proof.Gen.KernelIdeal.Frame
import proofs.«130712_j36206574305366_2_alg».proof.Proof.Gen.ReferenceIdeal
import proofs.«130712_j36206574305366_2_alg».proof.Proof.Gen.KernelIdeal.Value
import proofs.«130712_j36206574305366_2_alg».proof.Proof.Gen.ReferenceIdeal.Run
import proofs.«130712_j36206574305366_2_alg».proof.Proof.Gen.ReferenceIdeal.Read
import proofs.«130712_j36206574305366_2_alg».proof.Proof.Gen.Pre_finite_inputs
import proofs.«130712_j36206574305366_2_alg».proof.Proof.KernelArray
import proofs.«130712_j36206574305366_2_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- At the ideal values both programs end with the merge of the argument arrays: the kernel's result array block by
    block, the reference's as the last of its stages, and the arguments agree. -/
theorem algebraic : Cert.algebraic_KernelIdeal_ReferenceIdeal := by
  intro m ρ m' ρ' _ hagree
  refine ⟨fun c => Cert.ScanMerge.merged
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.Hand.v35_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
